-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S4x2048x2048 .f32) (main_arg1 : FVec F S8192x2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Kernel.lean ====
abbrev S4x2048x2048 : Shape := ⟨3, ![4, 2048, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩
abbrev S1x8192 : Shape := ⟨2, ![1, 8192]⟩
abbrev S8192x8192 : Shape := ⟨2, ![8192, 8192]⟩
abbrev S2048x2048 : Shape := ⟨2, ![2048, 2048]⟩
abbrev S2048x512 : Shape := ⟨2, ![2048, 512]⟩
abbrev S1x512 : Shape := ⟨2, ![1, 512]⟩
abbrev S4x2048x8192 : Shape := ⟨3, ![4, 2048, 8192]⟩

abbrev nBuf : Space → Nat
  | .hbm => 31
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .bf16⟩
  | .hbm, ⟨25, _⟩ => ⟨S2048x8192, .bf16⟩
  | .hbm, ⟨26, _⟩ => ⟨S1x8192, .f32⟩
  | .hbm, ⟨27, _⟩ => ⟨S8192x2048, .f32⟩
  | .hbm, ⟨28, _⟩ => ⟨S8192x2048, .bf16⟩
  | .hbm, ⟨29, _⟩ => ⟨S8192x8192, .f32⟩
  | .hbm, ⟨30, _⟩ => ⟨S4x2048x8192, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  bitsLt_bf16_f32 : FTy.bits .bf16 < FTy.bits .f32
  transposes_S8192x2048_S2048x8192_1_0 : S8192x2048.Transposes [1, 0] S2048x8192
  transposes_S8192x1_S1x8192_1_0 : S8192x1.Transposes [1, 0] S1x8192
  shapeCasts_S4x2048x2048_S8192x2048 : S4x2048x2048.ShapeCasts S8192x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S8192x8192_S4x2048x8192 : S8192x8192.ShapeCasts S4x2048x8192
  dot_S2048x2048_S2048x512_S2048x512_1_0_0_1_n_n_wf : DotDims.WF S2048x2048 S2048x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x2048.size a
  hwx0_0 : ∀ i : grid0.Coords, EltTy.bits .bf16 = 32 ∨ (Rect.block (s := S8192x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x8192.size a
  hwx0_1 : ∀ i : grid0.Coords, EltTy.bits .bf16 = 32 ∨ (Rect.block (s := S2048x8192) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x8192.size a
  hwx0_2 : ∀ i : grid0.Coords, EltTy.bits .f32 = 32 ∨ (Rect.block (s := S1x8192) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x8192.size a
  hwx0_3 : ∀ i : grid0.Coords, EltTy.bits .f32 = 32 ∨ (Rect.block (s := S8192x8192) S2048x512.size (cc0_transform_3 i) (hinb0_3 i)).WholeWords (EltTy.packing .f32)

variable [Facts₀]

def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf

abbrev win0_0 : Pipeline.Window sig grid0 :=
  Pipeline.Window.ofSpec (Memref.whole main_v14) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S4x2048x8192 : Shape := ⟨3, ![4, 2048, 8192]⟩

abbrev nBuf : Space → Nat
  | .hbm => 29
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S4x2048x8192, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x2048_0_1 : S8192x1.BroadcastsInDim S8192x2048 (![0, 1] : Fin 2 → Fin S8192x2048.rank)
  bcast_S_S8192x2048 : S_.BroadcastsInDim S8192x2048 (![] : Fin 0 → Fin S8192x2048.rank)
  dot_S4x2048x2048_S8192x2048_S4x2048x8192_2_1_01_0_n_n_wf : DotDims.WF S4x2048x2048 S8192x2048 S4x2048x8192 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf

class Facts : Prop extends Facts₀ where

variable [Facts]
-- ==== Proof.FiniteInputs.lean ====
/-
  The precondition read back: both argument arrays hold real numbers only.

  The precondition is the conjunction of two tests, one per argument: every element's absolute value is
  below +∞.  On the extended reals `|x| < +∞` fails exactly at the two infinities, so each element is a real.
-/
import proofs.«121888_j9526237462629_2_alg».proof.Pre_finite_inputs
import Idealize.ShloMosaic.PureOps.Ideal
import Idealize.ShloMosaic.Lib.ValueIdx
import Idealize.ShloMosaic.Lib.ReduceAll

noncomputable section

namespace Cert.FiniteInputs

open Idealize.ShloMosaic

/-- The pattern of +∞ denotes the top of the extended reals. -/
theorem ofBits_inf : Ideal.ofBits .f32 0x7F800000#32 = (⊤ : EReal) := by
  simp [Ideal.ofBits, Ideal.ieee]

/-- An extended real whose absolute value tests below +∞ is a real. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => exact absurd h (by simp [Ideal.cmp])
  | coe r => exact ⟨r, rfl⟩
  | top => exact absurd h (by simp [Ideal.cmp])

instance : Subsingleton Cert.Pre_finite_inputs.S_.Idx := ⟨fun a b => funext fun d => d.elim0⟩

variable [Cert.Pre_finite_inputs.Facts]

/-- Under the precondition every element of both arguments is a real. -/
theorem real_of_pre (x : FVec Ideal Cert.Pre_finite_inputs.S4x2048x2048 .f32) (w : FVec Ideal Cert.Pre_finite_inputs.S8192x2048 .f32)
    (h : Cert.Pre_finite_inputs.fn (F := Ideal) x w = fun _ => 1#1) :
    (∀ i, ∃ r : ℝ, x i = (r : EReal)) ∧ (∀ j, ∃ r : ℝ, w j = (r : EReal)) := by
  have h0 := congrFun h ValueIdx.ix0
  dsimp only [Cert.Pre_finite_inputs.fn] at h0
  obtain ⟨ha, hb⟩ := IntOp.andi_eq_one.mp h0
  exact ⟨fun i => real_of_abs_lt _ (Host.reduce_andi_all _ _ _ _ _ ha i),
    fun j => real_of_abs_lt _ (Host.reduce_andi_all _ _ _ _ _ hb j)⟩

end Cert.FiniteInputs

end
-- ==== Proof.LibRealSums.lean ====
/-
  Extended-real algebra for a quantised linear layer.

  A weight row is replaced by a ternary row `q` times one positive scale `s`.  One program forms the
  effective weight `w + (q · s − w)` and contracts it with the activations; the other contracts the
  ternary row and multiplies the finished sum by `s` once.  On the reals the two agree: the weight
  cancels, and `s` leaves the sum by distributivity.  On the extended reals both steps need every
  quantity to be finite, which is what the lemmas here assume.
-/
import Mathlib.Data.EReal.Operations
import Mathlib.Algebra.BigOperators.Ring.Finset

namespace Cert.ScaledSum

open scoped BigOperators

/-- An extended real between two reals is a real. -/
theorem real_of_between (a b : ℝ) (x : EReal) (h1 : (a : EReal) ≤ x) (h2 : x ≤ (b : EReal)) : ∃ r : ℝ, x = (r : EReal) := by
  induction x using EReal.rec with
  | bot => exact absurd h1 (not_le.2 (EReal.bot_lt_coe a))
  | coe r => exact ⟨r, rfl⟩
  | top => exact absurd h2 (not_le.2 (EReal.coe_lt_top b))

/-- The maximum of two reals, taken in the extended reals, is the real maximum. -/
theorem coe_max (a b : ℝ) : ((max a b : ℝ) : EReal) = max (a : EReal) (b : EReal) :=
  EReal.coe_strictMono.monotone.map_max

/-- A finite sum of reals, taken in the extended reals, is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A finite sum of finite extended reals is finite. -/
theorem exists_real_sum {ι : Type*} (s : Finset ι) (f : ι → EReal) (hf : ∀ k, ∃ r : ℝ, f k = (r : EReal)) :
    ∃ r : ℝ, (∑ k ∈ s, f k) = (r : EReal) := by
  choose g hg using hf
  exact ⟨∑ k ∈ s, g k, by rw [← coe_sum]; exact Finset.sum_congr rfl fun k _ => hg k⟩

/-- The straight-through weight: a finite `w` added to `a − w` gives back `a`. -/
theorem add_sub_cancel_real (w a : ℝ) : (w : EReal) + ((a : EReal) - (w : EReal)) = (a : EReal) := by
  rw [← EReal.coe_sub, ← EReal.coe_add]; congr 1; ring

/-- Contracting the activations with the effective weight `w + (q · s − w)` is contracting them with the
    ternary row and scaling the finished sum by `s`, all quantities finite. -/
theorem sum_effective_weight {ι : Type*} [Fintype ι] (X W Q : ι → EReal) (s : EReal)
    (hX : ∀ k, ∃ r : ℝ, X k = (r : EReal)) (hW : ∀ k, ∃ r : ℝ, W k = (r : EReal))
    (hQ : ∀ k, ∃ r : ℝ, Q k = (r : EReal)) (hs : ∃ r : ℝ, s = (r : EReal)) :
    (∑ k, X k * (W k + (Q k * s - W k))) = (∑ k, X k * Q k) * s := by
  choose x hx using hX
  choose w hw using hW
  choose q hq using hQ
  obtain ⟨t, rfl⟩ := hs
  have e1 : ∀ k, X k * (W k + (Q k * (t : EReal) - W k)) = ((x k * q k * t : ℝ) : EReal) := fun k => by
    rw [hx k, hw k, hq k, ← EReal.coe_mul, add_sub_cancel_real, ← EReal.coe_mul]; congr 1; ring
  have e2 : ∀ k, X k * Q k = ((x k * q k : ℝ) : EReal) := fun k => by rw [hx k, hq k, ← EReal.coe_mul]
  rw [Finset.sum_congr rfl fun k _ => e1 k, Finset.sum_congr rfl fun k _ => e2 k, coe_sum, coe_sum, ← EReal.coe_mul,
    Finset.sum_mul]

end Cert.ScaledSum
-- ==== Proof.Consts.lean ====
/-
  The float constants the two programs spell, as the extended reals their patterns denote: 2048 (the row
  length the mean divides by), the floor 9.99999974e-6 of the scale, and the clip bounds −1 and 1.  All are reals;
  2048 is moreover not zero, so dividing by it keeps a real a real.
-/
import Idealize.ShloMosaic.PureOps.Ideal

noncomputable section

namespace Cert.Consts

open Idealize.ShloMosaic

theorem ofBits_2048 : Ideal.ofBits .f32 0x45000000#32 = ((2048 : ℝ) : EReal) := by
  simp [Ideal.ofBits, Ideal.ieee, -EReal.coe_mul]; norm_num

theorem ofBits_neg_one : Ideal.ofBits .f32 0xBF800000#32 = ((-1 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

/-- The scale's floor: the f32 nearest 1e-5, the dyadic rational 10995116 / 2^40. -/
theorem ofBits_floor : Ideal.ofBits .f32 0x3727C5AC#32 = ((10995116 / 2 ^ 40 : ℝ) : EReal) := by
  simp [Ideal.ofBits, Ideal.ieee, -EReal.coe_mul]; norm_num

end Cert.Consts

end
-- ==== Proof.ScaleTernary.lean ====
/-
  The two quantities both programs compute from the weight before anything else, and that they are finite.

  `scale w o` is the clipped mean absolute value of weight row `o`: `max floor ((0 + ∑ₖ |w o k|) / 2048)`.
  For a real weight the absolute values are reals, so is their sum, so is the quotient by the nonzero
  real 2048, and so is the maximum with the real floor.

  `tern w (o, k)` is `min 1 (max (−1) (round (w o k / scale)))`: whatever the rounded quotient is, the clip puts it
  between −1 and 1, so it is a real — no hypothesis on `w` is needed.
-/
import proofs.«121888_j9526237462629_2_alg».proof.Proof.Gen.ReferenceIdeal.Read
import proofs.«121888_j9526237462629_2_alg».proof.Proof.LibRealSums
import proofs.«121888_j9526237462629_2_alg».proof.Proof.Consts

noncomputable section

namespace Cert.ScaleTernary

open Idealize.ShloMosaic Cert.ReferenceIdeal Cert.ReferenceIdeal.Read

/-- The per-row scale, a column `[8192, 1]`. -/
abbrev scale (w : FVec Ideal S8192x2048 .f32) : FVec Ideal S8192x1 .f32 := val_main_v5 (F := Ideal) w
/-- The ternary weight `[8192, 2048]`. -/
abbrev tern (w : FVec Ideal S8192x2048 .f32) : FVec Ideal S8192x2048 .f32 := val_main_v9 (F := Ideal) w

/-- The absolute value of a real is a real. -/
theorem abs_real (x : EReal) (h : ∃ r : ℝ, x = (r : EReal)) : ∃ r : ℝ, max x (-x) = (r : EReal) := by
  obtain ⟨r, rfl⟩ := h
  exact ⟨max r (-r), by rw [Cert.ScaledSum.coe_max, EReal.coe_neg]⟩

/-- The scale of a real weight is a real. -/
theorem scale_real (w : FVec Ideal S8192x2048 .f32) (hw : ∀ j, ∃ r : ℝ, w j = (r : EReal)) (i : S8192x1.Idx) :
    ∃ r : ℝ, scale w i = (r : EReal) := by
  show ∃ r : ℝ, val_main_v5 (F := Ideal) w i = (r : EReal)
  rw [val_main_v5_apply, val_main_call0_v1_apply, val_main_call0_v0_apply, val_main_cst_1_apply, val_main_v4_apply,
    val_main_v2_apply, val_main_v1_apply, val_main_v3_apply, val_main_cst_0_apply, val_main_cst_apply]
  simp only [Ideal.maximumf_def, Ideal.hostDivf_def, Ideal.ofBits_def, Ideal.ofBits_zero_f32, Cert.Consts.ofBits_2048,
    Cert.Consts.ofBits_floor, zero_add, Ideal.div_coe (by norm_num : (2048 : ℝ) ≠ 0)]
  obtain ⟨t, ht⟩ := Cert.ScaledSum.exists_real_sum Finset.univ
    (fun k : Fin 2048 => val_main_v0 (F := Ideal) w (idx_main_v1 (idx_main_v2 i) k)) (fun k => by
      show ∃ r : ℝ, val_main_v0 (F := Ideal) w (idx_main_v1 (idx_main_v2 i) k) = (r : EReal)
      rw [val_main_v0_apply]
      exact abs_real _ (hw _))
  rw [ht, ← EReal.coe_mul, ← Cert.ScaledSum.coe_max]
  exact ⟨_, rfl⟩

/-- Every entry of the ternary weight is a real. -/
theorem tern_real (w : FVec Ideal S8192x2048 .f32) (j : S8192x2048.Idx) : ∃ r : ℝ, tern w j = (r : EReal) := by
  show ∃ r : ℝ, val_main_v9 (F := Ideal) w j = (r : EReal)
  rw [val_main_v9_apply, val_main_call2_v4_apply, val_main_call2_v3_apply, val_main_cst_3_apply, val_main_call2_v2_apply,
    val_main_call2_v1_apply, val_main_call2_v0_apply, val_main_cst_2_apply]
  simp only [Ideal.maximumf_def, Ideal.minimumf_def, Ideal.ofBits_def, Cert.Consts.ofBits_one, Cert.Consts.ofBits_neg_one]
  refine Cert.ScaledSum.real_of_between (-1) 1 _ (le_min ?_ le_sup_left) (min_le_left _ _)
  exact_mod_cast (by norm_num : ((-1 : ℝ)) ≤ 1)

end Cert.ScaleTernary

end
-- ==== Proof.RefValue.lean ====
/-
  The result both programs compute, and that the reference computes it.

  `result x w (b, s, o) = (∑ₖ x b s k · tern w (o, k)) · scale w o`: the activations contracted with the ternary
  row, the finished sum scaled once.  The reference instead builds the effective weight
  `w + (tern · scale − w)` and contracts with that; for real `x` and `w` the two agree (the weight cancels and the
  scale leaves the sum).
-/
import proofs.«121888_j9526237462629_2_alg».proof.Proof.ScaleTernary

noncomputable section

namespace Cert.RefValue

open Idealize.ShloMosaic Idealize.ShloMosaic.ValueIdx Cert.ReferenceIdeal Cert.ReferenceIdeal.Read Cert.ScaleTernary

/-- The quantised linear layer at output coordinates `(b, s, o)`. -/
def resultAt (x : FVec Ideal S4x2048x2048 .f32) (w : FVec Ideal S8192x2048 .f32) (b : Fin 4) (s : Fin 2048) (o : Fin 8192) : EReal :=
  (∑ k : Fin 2048, x (ix3 b s k) * tern w (ix2 o k)) * scale w (ix2 o (0 : Fin 1))

/-- The quantised linear layer, index by index. -/
def result (x : FVec Ideal S4x2048x2048 .f32) (w : FVec Ideal S8192x2048 .f32) : FVec Ideal S4x2048x8192 .f32 :=
  fun i => resultAt x w (i 0) (i 1) (i 2)

theorem lidx_eq (b : Fin 4) (s : Fin 2048) (o : Fin 8192) (k : Fin 2048) : lidx_main_v14 (ix3 b s o) k = ix3 b s k :=
  funext fun a => Fin.ext (by match a with | ⟨0, _⟩ => rfl | ⟨1, _⟩ => rfl | ⟨2, _⟩ => rfl)
theorem ridx_eq (b : Fin 4) (s : Fin 2048) (o : Fin 8192) (k : Fin 2048) : ridx_main_v14 (ix3 b s o) k = ix2 o k :=
  funext fun a => Fin.ext (by match a with | ⟨0, _⟩ => rfl | ⟨1, _⟩ => rfl)
theorem sidx_eq (o : Fin 8192) (k : Fin 2048) : idx_main_v10 (ix2 o k) = ix2 o (0 : Fin 1) :=
  funext fun a => Fin.ext (by match a with | ⟨0, _⟩ => rfl | ⟨1, _⟩ => rfl)

/-- The effective weight the reference contracts with, at `(o, k)`. -/
theorem weight_at (w : FVec Ideal S8192x2048 .f32) (o : Fin 8192) (k : Fin 2048) :
    val_main_v13 (F := Ideal) w (ix2 o k) = w (ix2 o k) + (tern w (ix2 o k) * scale w (ix2 o (0 : Fin 1)) - w (ix2 o k)) := by
  rw [val_main_v13_apply, val_main_v12_apply, val_main_v11_apply, val_main_v10_apply, sidx_eq]
  rfl

/-- The reference's last stage at `(b, s, o)`, for real arguments. -/
theorem ref_at (x : FVec Ideal S4x2048x2048 .f32) (w : FVec Ideal S8192x2048 .f32)
    (hx : ∀ i, ∃ r : ℝ, x i = (r : EReal)) (hw : ∀ j, ∃ r : ℝ, w j = (r : EReal)) (b : Fin 4) (s : Fin 2048) (o : Fin 8192) :
    val_main_v14 (F := Ideal) x w (ix3 b s o) = resultAt x w b s o := by
  rw [val_main_v14_apply]
  have e : ∀ k : Fin 2048, x (lidx_main_v14 (ix3 b s o) k) * val_main_v13 (F := Ideal) w (ridx_main_v14 (ix3 b s o) k)
      = x (ix3 b s k) * (w (ix2 o k) + (tern w (ix2 o k) * scale w (ix2 o (0 : Fin 1)) - w (ix2 o k))) := fun k => by
    rw [lidx_eq, ridx_eq, weight_at]
  rw [Finset.sum_congr rfl fun k _ => e k]
  exact Cert.ScaledSum.sum_effective_weight (fun k : Fin 2048 => x (ix3 b s k)) (fun k => w (ix2 o k))
    (fun k => tern w (ix2 o k)) (scale w (ix2 o (0 : Fin 1))) (fun k => hx _) (fun k => hw _)
    (fun k => tern_real w _) (scale_real w hw _)

/-- The reference's last stage, for real arguments, is `result`. -/
theorem ref_eq (x : FVec Ideal S4x2048x2048 .f32) (w : FVec Ideal S8192x2048 .f32)
    (hx : ∀ i, ∃ r : ℝ, x i = (r : EReal)) (hw : ∀ j, ∃ r : ℝ, w j = (r : EReal)) :
    val_main_v14 (F := Ideal) x w = result x w := by
  funext i
  obtain ⟨b, s, o, rfl⟩ : ∃ (b : Fin 4) (s : Fin 2048) (o : Fin 8192), i = ix3 b s o := ⟨i 0, i 1, i 2, eq_ix3 i⟩
  exact ref_at x w hx hw b s o

end Cert.RefValue

end
-- ==== Proof.KernelPayload.lean ====
/-
  The kernel body's arithmetic at an index of its output block.

  The body multiplies a `[2048, 2048]` block of activations with a `[2048, 512]` block of the transposed ternary
  weight into a zero accumulator and scales column `q` of the product by entry `q` of a `[1, 512]` scale row:
  entry `(p, q)` is `(∑ₖ x p k · w k q) · s 0 q`.
-/
import proofs.«121888_j9526237462629_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.ShloMosaic.ValueIdx
open Cert.KernelIdeal Cert.KernelIdeal.Gen

theorem lhs_row (i : S2048x512.Idx) (q : dot_S2048x2048_S2048x512_S2048x512_1_0_0_1_n_n.contr.Idx) :
    (dot_S2048x2048_S2048x512_S2048x512_1_0_0_1_n_n.lhsIdx i q 0).val = (i 0).val := by
  unfold DotDims.lhsIdx
  rw [dif_neg (show ¬(0 : Fin S2048x2048.rank) ∈ dot_S2048x2048_S2048x512_S2048x512_1_0_0_1_n_n.lhsBatch by decide),
    dif_pos (show (0 : Fin S2048x2048.rank) ∈ dot_S2048x2048_S2048x512_S2048x512_1_0_0_1_n_n.lhsNonContracting by decide)]
  rfl

theorem rhs_col (i : S2048x512.Idx) (q : dot_S2048x2048_S2048x512_S2048x512_1_0_0_1_n_n.contr.Idx) :
    (dot_S2048x2048_S2048x512_S2048x512_1_0_0_1_n_n.rhsIdx i q 1).val = (i 1).val := by
  unfold DotDims.rhsIdx
  rw [dif_neg (show ¬(1 : Fin S2048x512.rank) ∈ dot_S2048x2048_S2048x512_S2048x512_1_0_0_1_n_n.rhsBatch by decide),
    dif_pos (show (1 : Fin S2048x512.rank) ∈ dot_S2048x2048_S2048x512_S2048x512_1_0_0_1_n_n.rhsNonContracting by decide)]
  rfl

/-- The block product into a zero accumulator, at `(p, q)`: the sum over the contracted axis. -/
theorem matmul_at (x0 : FVec Ideal S2048x2048 .bf16) (x1 : FVec Ideal S2048x512 .bf16) (p : Fin 2048) (q : Fin 512) :
    matmul dot_S2048x2048_S2048x512_S2048x512_1_0_0_1_n_n none x0 x1 (constant (F := Ideal) S2048x512 .f32 0x00000000#32) (ix2 p q)
      = ∑ k : Fin 2048, x0 (ix2 p k) * x1 (ix2 k q) := by
  simp only [matmul]
  rw [Ideal.matmul_constant_zero_apply, ← Equiv.sum_comp (contrEquiv1 dot_S2048x2048_S2048x512_S2048x512_1_0_0_1_n_n 2048 rfl rfl).symm]
  refine Finset.sum_congr rfl fun k _ => ?_
  have hk := contrEquiv1_symm_val dot_S2048x2048_S2048x512_S2048x512_1_0_0_1_n_n 2048 rfl rfl k
  have el : dot_S2048x2048_S2048x512_S2048x512_1_0_0_1_n_n.lhsIdx (ix2 p q) ((contrEquiv1 dot_S2048x2048_S2048x512_S2048x512_1_0_0_1_n_n 2048 rfl rfl).symm k) = ix2 p k :=
    funext fun a => Fin.ext (by
      match a with
      | ⟨0, _⟩ => exact lhs_row _ _
      | ⟨1, _⟩ => exact (dot_S2048x2048_S2048x512_S2048x512_1_0_0_1_n_n.lhsIdx_val_of_single rfl _ _).trans hk)
  have er : dot_S2048x2048_S2048x512_S2048x512_1_0_0_1_n_n.rhsIdx (ix2 p q) ((contrEquiv1 dot_S2048x2048_S2048x512_S2048x512_1_0_0_1_n_n 2048 rfl rfl).symm k) = ix2 k q :=
    funext fun a => Fin.ext (by
      match a with
      | ⟨0, _⟩ => exact (dot_S2048x2048_S2048x512_S2048x512_1_0_0_1_n_n.rhsIdx_val_of_single rfl _ _).trans hk
      | ⟨1, _⟩ => exact rhs_col _ _)
  rw [el, er]

/-- The scale row broadcast down the rows, at `(p, q)`: entry `q` of the row. -/
theorem row_bcast_at (x2 : FVec Ideal S1x512 .f32) (p : Fin 2048) (q : Fin 512) :
    broadcastTo S2048x512 x2 Facts₀.broadcasts_S1x512_S2048x512 (ix2 p q) = x2 (ix2 (0 : Fin 1) q) :=
  broadcastTo_apply _ _ _ (ix2 (0 : Fin 1) q) fun a => by
    match a with
    | ⟨0, _⟩ => rfl
    | ⟨1, _⟩ => rfl

/-- The body's stored value at `(p, q)`. -/
theorem pay_apply (x0 : Vec Ideal S2048x2048 .bf16) (x1 : Vec Ideal S2048x512 .bf16) (x2 : Vec Ideal S1x512 .f32) (p : Fin 2048) (q : Fin 512) :
    k0_pay1 (F := Ideal) x0 x1 x2 (ix2 p q) = (∑ k : Fin 2048, x0 (ix2 p k) * x1 (ix2 k q)) * x2 (ix2 (0 : Fin 1) q) := by
  unfold k0_pay1
  simp only [shapeCast_self]
  rw [mulf_apply, matmul_at, row_bcast_at]

end Cert.KernelIdeal.Hand

end
-- ==== Proof.KernelBlocks.lean ====
/-
  From the kernel's blocks to its whole output array.

  The grid is 4 × 16.  At point `(i, j)` the body reads rows `2048 i … 2048 i + 2047` of the activations, columns
  `512 j … 512 j + 511` of the transposed ternary weight and of the scale row, and writes block `(i, j)` of the
  `[8192, 8192]` output.  So entry `(r, o)` of the output, written by the one point whose block holds it, is
  `(∑ₖ X r k · Wt k o) · Sr 0 o` of the three operand arrays, and the 64 blocks tile the output.
-/
import proofs.«121888_j9526237462629_2_alg».proof.Proof.Gen.KernelIdeal.Frame
import proofs.«121888_j9526237462629_2_alg».proof.Proof.KernelPayload
import Idealize.ShloMosaic.Lib.Pipeline.Value
import Idealize.ShloMosaic.Lib.ValueIdx

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- Entry `(r, o)` of the product of `X` with `Wt`, column `o` scaled by entry `o` of the row `Sr`. -/
def outAt (X : S8192x2048.Idx → EReal) (Wt : S2048x8192.Idx → EReal) (Sr : S1x8192.Idx → EReal) (r : Fin 8192) (o : Fin 8192) : EReal :=
  (∑ k : Fin 2048, X (ix2 r k) * Wt (ix2 k o)) * Sr (ix2 (0 : Fin 1) o)

/-- The whole output array, of the operand arrays as the launch finds them. -/
def out15 (c : Dev nD) : S8192x8192.Idx → EReal :=
  fun i => outAt (V m c main_v14) (V m c main_v11) (V m c main_v12) (i 0) (i 1)

/-- A block's entry `(p, q)` is the array's entry `(r, o)` when the block's rows and columns are the array's. -/
theorem block_eq (X : S8192x2048.Idx → EReal) (Wt : S2048x8192.Idx → EReal) (Sr : S1x8192.Idx → EReal)
    (x0 : Vec Ideal S2048x2048 .bf16) (x1 : Vec Ideal S2048x512 .bf16) (x2 : Vec Ideal S1x512 .f32)
    (p : Fin 2048) (q : Fin 512) (r : Fin 8192) (o : Fin 8192)
    (h0 : ∀ k : Fin 2048, x0 (ix2 p k) = X (ix2 r k)) (h1 : ∀ k : Fin 2048, x1 (ix2 k q) = Wt (ix2 k o))
    (h2 : x2 (ix2 (0 : Fin 1) q) = Sr (ix2 (0 : Fin 1) o)) :
    k0_pay1 (F := Ideal) x0 x1 x2 (ix2 p q) = outAt X Wt Sr r o := by
  rw [pay_apply, h2]
  unfold outAt
  exact congrArg (· * Sr (ix2 (0 : Fin 1) o)) (Finset.sum_congr rfl fun k _ => by rw [h0, h1])

theorem hz : (![0, 0] : Fin 2 → Nat) = fun _ => 0 := funext fun a => by fin_cases a <;> rfl

/-- The four index maps over the grid: the activations follow the output's block row, the weight and the scale its
    block column; the output's block indices range over 4 × 16. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 3 ∧ win0_3.index t (1 : Fin 2) ≤ 15 :=
  (by decide +kernel : ∀ t : Fin grid0.N, _)

/-- Every block of the 4 × 16 tiling is some point's. -/
theorem idx_onto : ∀ (q0 : Fin 4) (q1 : Fin 16), ∃ t : Fin cfg0.N, win0_3.index t = ![q0.val, q1.val] :=
  (by decide +kernel : ∀ (q0 : Fin 4) (q1 : Fin 16), ∃ t : Fin grid0.N, win0_3.index t = ![q0.val, q1.val])

/-- What point `t` writes back is block `t` of `out15`. -/
theorem flushed_eq (c : Dev nD) (t : Fin cfg0.N) :
    (dats m 0 c).flushed 3 t = ((cfg0.win 3).blk t).view.read (Elt Ideal) (out15 m c) := by
  show (cfg0.win 3).cut (grid0.coords t) ((dats m 0 c).after 3 t) = _
  rw [after0_3]
  unfold out0_3
  rw [View.canon_unit_zero hz]
  simp only [View.ld_unit_zero (S := S2048x2048) hz, View.ld_unit_zero (S := S2048x512) hz, View.ld_unit_zero (S := S1x512) hz]
  obtain ⟨e0, e1, e2, e3, e4, e5, -, -⟩ := idx_facts t
  funext j
  obtain ⟨p, q, rfl⟩ : ∃ (p : Fin 2048) (q : Fin 512), j = ix2 p q := ⟨j 0, j 1, eq_ix2 j⟩
  show k0_pay1 (F := Ideal) (iblk m c 0 t) (iblk m c 1 t) (iblk m c 2 t) (ix2 p q)
    = outAt (V m c main_v14) (V m c main_v11) (V m c main_v12) (((cfg0.win 3).blk t).view.emb (ix2 p q) 0) (((cfg0.win 3).blk t).view.emb (ix2 p q) 1)
  refine block_eq _ _ _ _ _ _ p q _ _ (fun k => ?_) (fun k => ?_) ?_
  · show V m c main_v14 (((cfg0.win 0).blk t).view.emb (ix2 p k)) = V m c main_v14 (ix2 (((cfg0.win 3).blk t).view.emb (ix2 p q) 0) k)
    refine congrArg (V m c main_v14) (funext fun a => Fin.ext ?_)
    match a with
    | ⟨0, _⟩ => show win0_0.index t (0 : Fin 2) * 2048 + 1 * p.val = win0_3.index t (0 : Fin 2) * 2048 + 1 * p.val; rw [e0]
    | ⟨1, _⟩ => show win0_0.index t (1 : Fin 2) * 2048 + 1 * k.val = k.val; rw [e1]; omega
  · show V m c main_v11 (((cfg0.win 1).blk t).view.emb (ix2 k q)) = V m c main_v11 (ix2 k (((cfg0.win 3).blk t).view.emb (ix2 p q) 1))
    refine congrArg (V m c main_v11) (funext fun a => Fin.ext ?_)
    match a with
    | ⟨0, _⟩ => show win0_1.index t (0 : Fin 2) * 2048 + 1 * k.val = k.val; rw [e2]; omega
    | ⟨1, _⟩ => show win0_1.index t (1 : Fin 2) * 512 + 1 * q.val = win0_3.index t (1 : Fin 2) * 512 + 1 * q.val; rw [e3]
  · show V m c main_v12 (((cfg0.win 2).blk t).view.emb (ix2 (0 : Fin 1) q)) = V m c main_v12 (ix2 (0 : Fin 1) (((cfg0.win 3).blk t).view.emb (ix2 p q) 1))
    refine congrArg (V m c main_v12) (funext fun a => Fin.ext ?_)
    match a with
    | ⟨0, _⟩ => show win0_2.index t (0 : Fin 2) * 1 + 1 * 0 = 0; rw [e4]
    | ⟨1, _⟩ => show win0_2.index t (1 : Fin 2) * 512 + 1 * q.val = win0_3.index t (1 : Fin 2) * 512 + 1 * q.val; rw [e5]

/-- An index of the output is in point `t`'s block iff each coordinate is in the block's range on its axis. -/
theorem mem_blk (t : Fin cfg0.N) (i : S8192x8192.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v15).slice (win0_3.rect t)).set ↔ _
  rw [View.set_slice_whole, Rect.mem_set_unit]
  exact Iff.rfl

/-- The blocks tile the output: entry `(r, o)` is in the block of the point with block row `r / 2048` and block column `o / 512`. -/
theorem cover (i : S8192x8192.Idx) : ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := idx_onto ⟨(i 0).val / 2048, by omega⟩ ⟨(i 1).val / 512, by omega⟩
  have q0 : win0_3.index t (0 : Fin 2) = (i 0).val / 2048 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 512 ≤ (i 1).val ∧ (i 1).val < win0_3.index t (1 : Fin 2) * 512 + 512; omega

/-- The output array after the run. -/
theorem final15 (c : Dev nD) : (dats m 0 c).arrAt 3 cfg0.N = out15 m c :=
  (dats m 0 c).arrAt_eq_of_cover 3 (out15 m c) (fun t _ => flushed_eq m c t) cover

end Cert.KernelIdeal.Hand

end
-- ==== Proof.KernelHost.lean ====
/-
  What the three operand arrays of the kernel's launch hold, read at an index.

  Before the launch the host flattens the activations `[4, 2048, 2048]` to `[8192, 2048]` (row `b · 2048 + s`),
  computes the scale column and the ternary weight exactly as the reference does, and transposes both: the
  ternary weight to `[2048, 8192]`, the scale column to a row `[1, 8192]`.  The changes of float format in
  between are the identity on the extended reals.
-/
import proofs.«121888_j9526237462629_2_alg».proof.Proof.Gen.KernelIdeal.Frame
import proofs.«121888_j9526237462629_2_alg».proof.Proof.ScaleTernary
import Idealize.ShloMosaic.Lib.StableHlo.Run
import Idealize.ShloMosaic.Lib.Pipeline.Value
import Idealize.ShloMosaic.Lib.ValueIdx

noncomputable section

namespace Cert.KernelIdeal.Hand

open Idealize.ShloMosaic Idealize.ShloMosaic.TcCoe Idealize.SL.Sem Idealize.ShloMosaic.StableHlo Idealize.ShloMosaic.ValueIdx
open Cert.KernelIdeal Cert.KernelIdeal.Gen

variable (m : (ℓ : Loc nD τ sig) → Buf (Elt Ideal) ℓ)

/-- The activations operand: the first argument flattened. -/
theorem V_x (c : Dev nD) : @Eq (S8192x2048.Idx → EReal) (V m c main_v14)
    (truncf (F := Ideal) .bf16 (shapeCast S8192x2048 (m ((c : Thread nD τ).loc main_arg0)) shapeCasts_S4x2048x2048_S8192x2048) bitsLt_bf16_f32) := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

/-- The weight operand: the ternary weight, transposed. -/
theorem V_w (c : Dev nD) : @Eq (S2048x8192.Idx → EReal) (V m c main_v11)
    (transpose S2048x8192 [1, 0] (truncf (F := Ideal) .bf16 (Cert.ScaleTernary.tern (m ((c : Thread nD τ).loc main_arg1))) bitsLt_bf16_f32) transposes_S8192x2048_S2048x8192_1_0) := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

/-- The scale operand: the scale column, transposed to a row. -/
theorem V_s (c : Dev nD) : @Eq (S1x8192.Idx → EReal) (V m c main_v12)
    (transpose S1x8192 [1, 0] (Cert.ScaleTernary.scale (m ((c : Thread nD τ).loc main_arg1))) transposes_S8192x1_S1x8192_1_0) := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

/-- Row `b · 2048 + s` of the flattened activations is row `(b, s)` of the argument. -/
theorem V_x_apply (c : Dev nD) (b : Fin 4) (s : Fin 2048) (k : Fin 2048) (r : Fin 8192) (hr : r.val = b.val * 2048 + s.val) :
    (V m c main_v14 : S8192x2048.Idx → EReal) (ix2 r k) = (m ((c : Thread nD τ).loc main_arg0) : S4x2048x2048.Idx → EReal) (ix3 b s k) := by
  rw [V_x, truncf_apply]
  refine shapeCast_apply _ _ _ _ ?_
  show (S4x2048x2048.rowMajor (ix3 b s k)).val = (S8192x2048.rowMajor (ix2 r k)).val
  rw [Shape.rowMajor_val_three, Shape.rowMajor_val_two]
  show (b.val * 2048 + s.val) * 2048 + k.val = r.val * 2048 + k.val
  rw [hr]

/-- Entry `(k, o)` of the weight operand is entry `(o, k)` of the ternary weight. -/
theorem V_w_apply (c : Dev nD) (k : Fin 2048) (o : Fin 8192) :
    (V m c main_v11 : S2048x8192.Idx → EReal) (ix2 k o) = Cert.ScaleTernary.tern (m ((c : Thread nD τ).loc main_arg1)) (ix2 o k) := by
  rw [V_w]
  refine (transpose_apply _ _ _ _ (ix2 o k) fun a => by match a with | ⟨0, _⟩ => rfl | ⟨1, _⟩ => rfl).trans ?_
  rfl

/-- Entry `o` of the scale operand is the scale of weight row `o`. -/
theorem V_s_apply (c : Dev nD) (o : Fin 8192) :
    (V m c main_v12 : S1x8192.Idx → EReal) (ix2 (0 : Fin 1) o) = Cert.ScaleTernary.scale (m ((c : Thread nD τ).loc main_arg1)) (ix2 o (0 : Fin 1)) := by
  rw [V_s]
  exact transpose_apply _ _ _ _ (ix2 o (0 : Fin 1)) fun a => by match a with | ⟨0, _⟩ => rfl | ⟨1, _⟩ => rfl

end Cert.KernelIdeal.Hand

end
-- ==== Proof.KernelRun.lean ====
/-
  The kernel program's run: its result is the quantised linear layer of the arguments.

  After the launch the host only views the `[8192, 8192]` output as `[4, 2048, 8192]`: entry `(b, s, o)` of the
  result is entry `(b · 2048 + s, o)` of the output array, that is, the activations' row `(b, s)` contracted with
  ternary row `o`, times the scale of row `o` — the same expression the reference's value was brought to.
-/
import proofs.«121888_j9526237462629_2_alg».proof.Proof.KernelBlocks
import proofs.«121888_j9526237462629_2_alg».proof.Proof.KernelHost
import proofs.«121888_j9526237462629_2_alg».proof.Proof.RefValue
import Idealize.ShloMosaic.Lib.StableHlo.Run

noncomputable section

namespace Cert.KernelIdeal.Hand

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The result buffer after the host's last line: the output array under the change of shape. -/
theorem tail_eq (c : Dev nD) : @Eq (S4x2048x8192.Idx → EReal) (Pipeline.afterTail₀ cfgs (dats m) 0 (V0 m) [hostOps1] c main_v16)
    (shapeCast S4x2048x8192 (out15 m c) shapeCasts_S8192x8192_S4x2048x8192) := by
  unfold Pipeline.afterTail₀
  show StableHlo.after hostOps1 _ (Proc.devRef .tc main_v16) = _
  after_results
  have e : @Eq (S8192x8192.Idx → EReal) (Pipeline.withArrays (cfgs 0).spec c (V0 m c) (fun w => (dats m 0 c).arrAt w (cfgs 0).N) (Proc.devRef .tc main_v15))
      (out15 m c) := (Pipeline.withArrays_arr spec0 launch0.win.arr_inj c _ _ 3).trans (final15 m c)
  funext i
  show shapeCast S4x2048x8192 (Pipeline.withArrays (cfgs 0).spec c (V0 m c) (fun w => (dats m 0 c).arrAt w (cfgs 0).N) (Proc.devRef .tc main_v15))
    shapeCasts_S8192x8192_S4x2048x8192 i = _
  rw [e]

/-- Entry `(b, s, o)` of the reshaped output is entry `(b · 2048 + s, o)` of the output array. -/
theorem reshaped_at (c : Dev nD) (b : Fin 4) (s : Fin 2048) (o : Fin 8192) :
    shapeCast S4x2048x8192 (out15 m c) shapeCasts_S8192x8192_S4x2048x8192 (ix3 b s o)
      = outAt (V m c main_v14) (V m c main_v11) (V m c main_v12) ⟨b.val * 2048 + s.val, by omega⟩ o := by
  refine (shapeCast_apply _ _ _ (ix2 (⟨b.val * 2048 + s.val, by omega⟩ : Fin 8192) o) ?_).trans rfl
  show (S8192x8192.rowMajor (ix2 (⟨b.val * 2048 + s.val, by omega⟩ : Fin 8192) o)).val = (S4x2048x8192.rowMajor (ix3 b s o)).val
  rw [Shape.rowMajor_val_three, Shape.rowMajor_val_two]
  show (b.val * 2048 + s.val) * 8192 + o.val = (b.val * 2048 + s.val) * 8192 + o.val
  rfl

/-- The output array's entry, in the arguments: the quantised linear layer at `(b, s, o)`. -/
theorem outAt_eq (c : Dev nD) (b : Fin 4) (s : Fin 2048) (o : Fin 8192) (r : Fin 8192) (hr : r.val = b.val * 2048 + s.val) :
    outAt (V m c main_v14) (V m c main_v11) (V m c main_v12) r o
      = Cert.RefValue.resultAt (m ((c : Thread nD τ).loc main_arg0)) (m ((c : Thread nD τ).loc main_arg1)) b s o := by
  unfold outAt Cert.RefValue.resultAt
  rw [V_s_apply]
  exact congrArg (· * _) (Finset.sum_congr rfl fun k _ => by rw [V_x_apply m c b s k r hr, V_w_apply])

/-- The result buffer after the run is the quantised linear layer of the arguments. -/
theorem result_eq (c : Dev nD) : @Eq (S4x2048x8192.Idx → EReal) (Pipeline.afterTail₀ cfgs (dats m) 0 (V0 m) [hostOps1] c main_v16)
    (Cert.RefValue.result (m ((c : Thread nD τ).loc main_arg0)) (m ((c : Thread nD τ).loc main_arg1))) := by
  rw [tail_eq]
  funext i
  obtain ⟨b, s, o, rfl⟩ : ∃ (b : Fin 4) (s : Fin 2048) (o : Fin 8192), i = ix3 b s o := ⟨i 0, i 1, i 2, eq_ix3 i⟩
  rw [reshaped_at]
  exact outAt_eq m c b s o _ rfl

/-- Every weakly fair execution of the kernel program terminates with the result buffer at the quantised linear
    layer of the arguments, the arguments unchanged. -/
theorem run : θ_run defs (onTc (τ := τ) (main (F := Ideal))) ⟨m, fun _ => 0, ρ⟩ fun r => ∀ c : Dev nD,
      r.2.mem ((c : Thread nD τ).loc main_v16) = Cert.RefValue.result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v16 (Pipeline.mem_restRefs_of main_v16 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Hand

end
-- ==== Proof.lean ====
/-
  A ternary-weight linear layer: the kernel against its reference, over the extended reals.

  Both programs first compute, from the weight `w : [8192, 2048]`, the per-row scale
  `scale o = max floor (mean |w o ·|)` and the ternary weight `tern (o, k) = clip (round (w o k / scale o)) (−1) 1`, by the same
  host operations.  The reference then forms the effective weight `w + (tern · scale − w)` and contracts it with the
  activations `x : [4, 2048, 2048]`.  The kernel flattens `x`, multiplies it block by block (a 4 × 16 grid) with the
  transposed ternary weight into a zero accumulator, scales each column of a block by its row's scale, and views the
  `[8192, 8192]` output as `[4, 2048, 8192]`.

  For finite inputs both results are `(∑ₖ x b s k · tern (o, k)) · scale o` at `(b, s, o)` (`Cert.RefValue.result`):
  the reference because a real `w` cancels from `w + (a − w)` and a real scale leaves a sum of reals
  (Proof/LibRealSums.lean, Proof/RefValue.lean; the scale and the ternary weight are reals by
  Proof/ScaleTernary.lean, the inputs by Proof/FiniteInputs.lean); the kernel because the body's block entry is that
  expression of its blocks (Proof/KernelPayload.lean), the blocks are rows and columns of the operand arrays and tile
  the output (Proof/KernelBlocks.lean), the operand arrays are the flattened activations and the transposed ternary
  weight and scale (Proof/KernelHost.lean), and the last reshape only renames the rows (Proof/KernelRun.lean).
  Changes of float format are the identity on the extended reals, and the idealisation rewrote nothing.
-/
import proofs.«121888_j9526237462629_2_alg».proof.Defs
import proofs.«121888_j9526237462629_2_alg».proof.Proof.Gen.Kernel
import proofs.«121888_j9526237462629_2_alg».proof.Proof.Gen.Kernel.Skeleton
import proofs.«121888_j9526237462629_2_alg».proof.Proof.Gen.Kernel.Launch
import proofs.«121888_j9526237462629_2_alg».proof.Proof.Gen.Kernel.Points
import proofs.«121888_j9526237462629_2_alg».proof.Proof.Gen.Kernel.Frame
import proofs.«121888_j9526237462629_2_alg».proof.Proof.Gen.KernelIdeal
import proofs.«121888_j9526237462629_2_alg».proof.Proof.Gen.KernelIdeal.Skeleton
import proofs.«121888_j9526237462629_2_alg».proof.Proof.Gen.KernelIdeal.Launch
import proofs.«121888_j9526237462629_2_alg».proof.Proof.Gen.KernelIdeal.Points
import proofs.«121888_j9526237462629_2_alg».proof.Proof.Gen.KernelIdeal.Frame
import proofs.«121888_j9526237462629_2_alg».proof.Proof.Gen.ReferenceIdeal
import proofs.«121888_j9526237462629_2_alg».proof.Proof.Gen.Pre_finite_inputs
import proofs.«121888_j9526237462629_2_alg».proof.Proof.Gen.ReferenceIdeal.Run
import proofs.«121888_j9526237462629_2_alg».proof.Proof.Gen.ReferenceIdeal.Read
import proofs.«121888_j9526237462629_2_alg».proof.Proof.FiniteInputs
import proofs.«121888_j9526237462629_2_alg».proof.Proof.RefValue
import proofs.«121888_j9526237462629_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealised kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From finite inputs that agree, both programs end with the quantised linear layer of the arguments. -/
theorem algebraic : Cert.algebraic_KernelIdeal_ReferenceIdeal := by
  intro m ρ m' ρ' hpre hagree
  refine ⟨fun c => Cert.RefValue.result (m ((c : Thread Cert.KernelIdeal.nD Cert.KernelIdeal.τ).loc Cert.KernelIdeal.main_arg0))
    (m ((c : Thread Cert.KernelIdeal.nD Cert.KernelIdeal.τ).loc Cert.KernelIdeal.main_arg1)), Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.FiniteInputs.real_of_pre _ _ (hpre c)
  rw [Cert.ReferenceIdeal.Read.val_main_v14_eq, (hagree c).1, (hagree c).2]
  exact Cert.RefValue.ref_eq _ _ hx hw

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
